-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid step of the kernel leaves behind, as values. The product is accumulated over the third grid
  axis k = 0 … 3 in a scratch block: the first step of a run zeroes it and adds its 1024-wide slice of the
  contraction, each later step adds its own slice, and the last step also writes accumulator + bias to the output
  block. Each lemma reads the stores one case of the body makes back as the body's arithmetic on the blocks it loaded.
-/
import proofs.«174094_j3212635538024_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a first step of a run (k = 0) the body zeroes the accumulator, reads it back and adds the step's
    product: it leaves `0 + x·w` in the accumulator. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- At a middle step (k = 1, 2) the body adds the step's product to what the step before left. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S1024x1024) hz]

/-- At the last step (k = 3) the accumulator gets the step's product added in the same way, -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block is that accumulator, read back, plus the bias row broadcast down the rows. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

end Cert.KernelIdeal.Pieces

end
-- ==== Proof.PayloadAt.lean ====
/-
  The body's arithmetic over the extended reals, read at one entry (p, q) of a 1024 × 1024 block: the reset block
  is zero; an accumulation step adds to the accumulator's entry the sum over r < 1024 of x (p, r) · w (r, q) (the
  matrix unit's product into a zero accumulator, the change of float format being the identity); the output is
  the accumulator's entry plus the bias row's entry q (the row broadcast down the 1024 rows).
-/
import proofs.«174094_j3212635538024_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.PayloadAt

open Cert.KernelIdeal Cert.KernelIdeal.Gen Idealize.ShloMosaic.ValueIdx

/-- The block the accumulator is reset to is zero everywhere. -/
theorem zero_at (y : S1024x1024.Idx) : k0_pay1 (F := Ideal) y = 0 := by
  unfold k0_pay1
  simp only [shapeCast_self]
  exact Ideal.ofBits_zero_f32

theorem lhs_row (i : S1024x1024.Idx) (s : dot_S1024x1024_S1024x1024_S1024x1024_1_0_0_1_n_n.contr.Idx) :
    (dot_S1024x1024_S1024x1024_S1024x1024_1_0_0_1_n_n.lhsIdx i s 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_contr (i : S1024x1024.Idx) (s : dot_S1024x1024_S1024x1024_S1024x1024_1_0_0_1_n_n.contr.Idx) :
    (dot_S1024x1024_S1024x1024_S1024x1024_1_0_0_1_n_n.lhsIdx i s 1).val = (s ⟨0, by decide⟩).val :=
  dot_S1024x1024_S1024x1024_S1024x1024_1_0_0_1_n_n.lhsIdx_val_of_single rfl i s

theorem rhs_contr (i : S1024x1024.Idx) (s : dot_S1024x1024_S1024x1024_S1024x1024_1_0_0_1_n_n.contr.Idx) :
    (dot_S1024x1024_S1024x1024_S1024x1024_1_0_0_1_n_n.rhsIdx i s 0).val = (s ⟨0, by decide⟩).val :=
  dot_S1024x1024_S1024x1024_S1024x1024_1_0_0_1_n_n.rhsIdx_val_of_single rfl i s

theorem rhs_col (i : S1024x1024.Idx) (s : dot_S1024x1024_S1024x1024_S1024x1024_1_0_0_1_n_n.contr.Idx) :
    (dot_S1024x1024_S1024x1024_S1024x1024_1_0_0_1_n_n.rhsIdx i s 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product at (p, q) is the sum over the 1024 contraction positions r of x (p, r) · w (r, q). -/
theorem product_at (x w : FVec Ideal S1024x1024 .bf16) (p q : Fin 1024) :
    (FloatOps.matmul (F := Ideal) dot_S1024x1024_S1024x1024_S1024x1024_1_0_0_1_n_n none x w (constant S1024x1024 .f32 0x00000000#32) (ix2 p q) : EReal)
      = ∑ r : Fin 1024, (x (ix2 p r) : EReal) * (w (ix2 r q) : EReal) := by
  rw [Ideal.matmul_constant_zero_apply, ← Equiv.sum_comp (contrEquiv1 dot_S1024x1024_S1024x1024_S1024x1024_1_0_0_1_n_n 1024 rfl rfl).symm]
  refine Finset.sum_congr rfl fun r _ => ?_
  have hr := contrEquiv1_symm_val dot_S1024x1024_S1024x1024_S1024x1024_1_0_0_1_n_n 1024 rfl rfl r
  have el : dot_S1024x1024_S1024x1024_S1024x1024_1_0_0_1_n_n.lhsIdx (ix2 p q) ((contrEquiv1 dot_S1024x1024_S1024x1024_S1024x1024_1_0_0_1_n_n 1024 rfl rfl).symm r) = ix2 p r :=
    funext fun a => Fin.ext (by
      match a with
      | ⟨0, _⟩ => exact lhs_row _ _
      | ⟨1, _⟩ => exact (lhs_contr _ _).trans hr)
  have er : dot_S1024x1024_S1024x1024_S1024x1024_1_0_0_1_n_n.rhsIdx (ix2 p q) ((contrEquiv1 dot_S1024x1024_S1024x1024_S1024x1024_1_0_0_1_n_n 1024 rfl rfl).symm r) = ix2 r q :=
    funext fun a => Fin.ext (by
      match a with
      | ⟨0, _⟩ => exact (rhs_contr _ _).trans hr
      | ⟨1, _⟩ => exact rhs_col _ _)
  rw [el, er]

/-- One accumulation step at (p, q): what the accumulator held there, plus the step's block product there. -/
theorem step_at (acc : Vec Ideal S1024x1024 .f32) (x w : Vec Ideal S1024x1024 .bf16) (p q : Fin 1024) :
    (k0_pay2 (F := Ideal) acc x w (ix2 p q) : EReal)
      = (acc (ix2 p q) : EReal) + ∑ r : Fin 1024, (x (ix2 p r) : EReal) * (w (ix2 r q) : EReal) := by
  unfold k0_pay2
  simp only [shapeCast_self]
  exact congrArg ((acc (ix2 p q) : EReal) + ·) (product_at x w p q)

/-- The output block at (p, q): the accumulator there plus the bias row's entry q. -/
theorem bias_at (acc : Vec Ideal S1024x1024 .f32) (b : Vec Ideal S1x1024 .f32) (p q : Fin 1024) :
    (k0_pay3 (F := Ideal) acc b (ix2 p q) : EReal) = (acc (ix2 p q) : EReal) + (b (ix2 (0 : Fin 1) q) : EReal) := by
  unfold k0_pay3
  simp only [shapeCast_self]
  refine congrArg ((acc (ix2 p q) : EReal) + ·) ?_
  exact broadcastTo_apply b broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.KernelIdeal.PayloadAt

end
-- ==== Proof.BlockSum.lean ====
/-
  A sum over 4096 consecutive indices, cut into four consecutive blocks of 1024: in any commutative
  additive monoid the whole sum is the sum of the four block sums. Only commutativity and associativity
  of addition are used, so the law holds on the extended reals, infinities included.
-/
import Mathlib.Algebra.BigOperators.Fin
import Mathlib.Logic.Equiv.Fin.Basic

namespace BlockSum

/-- Position `r` of block `b` (blocks of 1024) as an index below 4096. -/
def at4 (b : Fin 4) (r : Fin 1024) : Fin 4096 := ⟨1024 * b.val + r.val, by omega⟩

@[simp] theorem at4_val (b : Fin 4) (r : Fin 1024) : (at4 b r).val = 1024 * b.val + r.val := rfl

/-- The whole sum is the sum of the block sums. -/
theorem sum_blocks {M : Type*} [AddCommMonoid M] (f : Fin 4096 → M) :
    ∑ k : Fin 4096, f k = ∑ b : Fin 4, ∑ r : Fin 1024, f (at4 b r) := by
  have e : ∀ p : Fin 4 × Fin 1024, (finProdFinEquiv p : Fin (4 * 1024)) = at4 p.1 p.2 := by
    rintro ⟨b, r⟩
    apply Fin.ext
    simp [finProdFinEquiv, at4, Nat.add_comm]
  rw [← Fintype.sum_prod_type' (fun b r => f (at4 b r))]
  rw [← (finProdFinEquiv : Fin 4 × Fin 1024 ≃ Fin (4 * 1024)).sum_comp f]
  exact Finset.sum_congr rfl fun p _ => congrArg f (e p)

end BlockSum
-- ==== Proof.Spec.lean ====
/-
  The function both programs compute, over the extended reals: a matrix product with a bias row,

      G X W B (i, j) = (∑ k < 4096, X (i, k) · W (k, j)) + B j        for X : 8192 × 4096, W : 4096 × 4096, B : 4096,

  and the same entry with the contraction cut into four blocks of 1024 — the form in which a product accumulated
  block by block reaches it. Arrays are extended by zero to all pairs of naturals so that block arithmetic
  (1024 · block + offset) stays in the naturals.
-/
import Idealize.ShloMosaic.Lib.ValueIdx
import proofs.«174094_j3212635538024_1_alg».proof.Proof.BlockSum

noncomputable section

namespace MatmulBias

open Idealize.ShloMosaic Idealize.ShloMosaic.ValueIdx

/-- A rank-2 array read at a pair of naturals: its entry when both are in range, zero otherwise. -/
def ext2 {n0 n1 : ℕ} (X : (⟨2, ![n0, n1]⟩ : Shape).Idx → EReal) (a b : ℕ) : EReal :=
  if h : a < n0 ∧ b < n1 then X (ix2 ⟨a, h.1⟩ ⟨b, h.2⟩) else 0

/-- A rank-1 array read at a natural: its entry when in range, zero otherwise. -/
def ext1 {n : ℕ} (B : (⟨1, ![n]⟩ : Shape).Idx → EReal) (a : ℕ) : EReal :=
  if h : a < n then B (ix1 ⟨a, h⟩) else 0

/-- An entry of a rank-2 array is its extension at the index's coordinates. -/
theorem ext2_of_idx {n0 n1 : ℕ} (X : (⟨2, ![n0, n1]⟩ : Shape).Idx → EReal) (i : (⟨2, ![n0, n1]⟩ : Shape).Idx)
    (a b : ℕ) (ha : (i 0).val = a) (hb : (i 1).val = b) : X i = ext2 X a b := by
  subst ha hb
  unfold ext2
  rw [dif_pos ⟨idx2_lt0 i, idx2_lt1 i⟩]
  exact congrArg X (eq_ix2 i)

/-- An entry of a rank-1 array is its extension at the index's coordinate. -/
theorem ext1_of_idx {n : ℕ} (B : (⟨1, ![n]⟩ : Shape).Idx → EReal) (i : (⟨1, ![n]⟩ : Shape).Idx)
    (a : ℕ) (ha : (i 0).val = a) : B i = ext1 B a := by
  subst ha
  unfold ext1
  rw [dif_pos (show (i 0).val < n from (i 0).isLt)]
  exact congrArg B (eq_ix1 i)

abbrev SX : Shape := ⟨2, ![8192, 4096]⟩
abbrev SW : Shape := ⟨2, ![4096, 4096]⟩
abbrev SB : Shape := ⟨1, ![4096]⟩

/-- The product with the bias row added, entry by entry. -/
def G (X : SX.Idx → EReal) (W : SW.Idx → EReal) (B : SB.Idx → EReal) : SX.Idx → EReal := fun i =>
  (∑ k : Fin 4096, X (ix2 (n0 := 8192) (n1 := 4096) ⟨(i 0).val, idx2_lt0 i⟩ k)
      * W (ix2 (n0 := 4096) (n1 := 4096) k ⟨(i 1).val, idx2_lt1 i⟩))
    + B (ix1 (n := 4096) ⟨(i 1).val, idx2_lt1 i⟩)

/-- Block `b` of the contraction, for the entry at offset (p, q) of tile (i, j): the 1024 products whose
    contraction index lies in [1024 b, 1024 b + 1024). -/
def blockTerm (X : SX.Idx → EReal) (W : SW.Idx → EReal) (i j b : ℕ) (p q : Fin 1024) : EReal :=
  ∑ r : Fin 1024, ext2 X (1024 * i + p.val) (1024 * b + r.val) * ext2 W (1024 * b + r.val) (1024 * j + q.val)

/-- The entry at offset (p, q) of tile (i, j) is the sum of its four contraction blocks, plus the bias. -/
theorem G_blocks (X : SX.Idx → EReal) (W : SW.Idx → EReal) (B : SB.Idx → EReal) (idx : SX.Idx)
    (i j : ℕ) (p q : Fin 1024) (h0 : (idx 0).val = 1024 * i + p.val) (h1 : (idx 1).val = 1024 * j + q.val) :
    G X W B idx = (∑ b ∈ Finset.range 4, blockTerm X W i j b p q) + ext1 B (1024 * j + q.val) := by
  unfold G
  rw [BlockSum.sum_blocks, Finset.sum_range]
  congr 1
  · refine Finset.sum_congr rfl fun b _ => ?_
    unfold blockTerm
    refine Finset.sum_congr rfl fun r _ => ?_
    exact congrArg₂ (· * ·) (ext2_of_idx X _ _ _ h0 rfl) (ext2_of_idx W _ _ _ rfl h1)
  · exact ext1_of_idx B _ _ h1

end MatmulBias

end
-- ==== Proof.Blocks.lean ====
/-
  Where the kernel's operand blocks come from. Grid point t = 16·i + 4·j + k (i < 8 row tiles, j < 4 column tiles,
  k < 4 contraction blocks, k fastest) works on x's block (i, k), w's block (k, j), the bias row's block (0, j) and
  the output's block (i, j), all of side 1024. The arrays the windows stage are x and w with the float format
  narrowed — the identity over the extended reals — and the bias reshaped to one row. So an entry of a block is an
  entry of an argument array at 1024 · block + offset, and the 1024 products one step contributes to entry (p, q)
  are contraction block k of the matrix product's entry.
-/
import proofs.«174094_j3212635538024_1_alg».proof.Proof.Gen.KernelIdeal.Frame
import proofs.«174094_j3212635538024_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx MatmulBias

variable (m : (ℓ : Loc nD τ sig) → Buf (Elt Ideal) ℓ)

/-- The three argument arrays as launched, as functions of an index into the extended reals. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- Which block of each array a grid point t = 16·i + 4·j + k (i < 8, j < 4, k < 4) works on:
    x's block (i, k), w's block (k, j), the bias row's block (0, j), the output's block (i, j). -/
theorem block_of_point : ∀ t : Fin cfg0.N,
    (win0_0.index t 0 = t.val / 16 ∧ win0_0.index t 1 = t.val % 4)
    ∧ (win0_1.index t 0 = t.val % 4 ∧ win0_1.index t 1 = t.val / 4 % 4)
    ∧ (win0_2.index t 0 = 0 ∧ win0_2.index t 1 = t.val / 4 % 4)
    ∧ (win0_3.index t 0 = t.val / 16 ∧ win0_3.index t 1 = t.val / 4 % 4) :=
  (by decide +kernel : ∀ t : Fin grid0.N,
    (win0_0.index t 0 = t.val / 16 ∧ win0_0.index t 1 = t.val % 4)
    ∧ (win0_1.index t 0 = t.val % 4 ∧ win0_1.index t 1 = t.val / 4 % 4)
    ∧ (win0_2.index t 0 = 0 ∧ win0_2.index t 1 = t.val / 4 % 4)
    ∧ (win0_3.index t 0 = t.val / 16 ∧ win0_3.index t 1 = t.val / 4 % 4))

/-- The array the first window stages is x with its float format narrowed: over the extended reals, x itself. -/
theorem staged_x (c : Dev nD) (i : S8192x4096.Idx) : (V m c main_v0 i : EReal) = argX m c i := by
  have e : (V m c main_v0 : S8192x4096.Idx → EReal) = truncf (F := Ideal) .bf16 (m ((c : Thread nD τ).loc main_arg0)) bitsLt_bf16_f32 := by
    dsimp only [Gen.V, Gen.hostOps0]; after_results
  rw [e]; rfl

/-- Likewise the second window's array is w. -/
theorem staged_w (c : Dev nD) (i : S4096x4096.Idx) : (V m c main_v1 i : EReal) = argW m c i := by
  have e : (V m c main_v1 : S4096x4096.Idx → EReal) = truncf (F := Ideal) .bf16 (m ((c : Thread nD τ).loc main_arg1)) bitsLt_bf16_f32 := by
    dsimp only [Gen.V, Gen.hostOps0]; after_results
  rw [e]; rfl

/-- The third window's array is the bias reshaped to one row: entry (0, q) is the bias at q. -/
theorem staged_b (c : Dev nD) (i : S1x4096.Idx) : (V m c main_v2 i : EReal) = ext1 (argB m c) (i 1).val := by
  have e : (V m c main_v2 : S1x4096.Idx → EReal) = shapeCast S1x4096 (m ((c : Thread nD τ).loc main_arg2)) shapeCasts_S4096_S1x4096 := by
    dsimp only [Gen.V, Gen.hostOps0]; after_results; rfl
  rw [e]
  rw [shapeCast_apply (m ((c : Thread nD τ).loc main_arg2)) shapeCasts_S4096_S1x4096 i (ix1 ⟨(i 1).val, idx2_lt1 i⟩) (by
    show (S4096.rowMajor (ix1 (n := 4096) ⟨(i 1).val, idx2_lt1 i⟩)).val = (S1x4096.rowMajor i).val
    rw [Shape.rowMajor_val_one, Shape.rowMajor_val_two]
    have h0 : (i 0).val < 1 := idx2_lt0 i
    show (i 1).val = (i 0).val * 4096 + (i 1).val
    omega)]
  exact ext1_of_idx (argB m c) _ _ rfl

/-- x's block at point t, entry (p, r): x at row 1024·(t / 16) + p, column 1024·(t mod 4) + r. -/
theorem x_block (c : Dev nD) (t : Fin cfg0.N) (p r : Fin 1024) :
    (iblk m c 0 t (ix2 p r) : EReal) = ext2 (argX m c) (1024 * (t.val / 16) + p.val) (1024 * (t.val % 4) + r.val) := by
  unfold iblk
  rw [View.read_apply]
  show (V m c main_v0 _ : EReal) = _
  rw [staged_x]
  refine ext2_of_idx (argX m c) _ _ _ ?_ ?_
  · show win0_0.index t 0 * 1024 + 1 * p.val = _
    rw [(block_of_point t).1.1]; omega
  · show win0_0.index t 1 * 1024 + 1 * r.val = _
    rw [(block_of_point t).1.2]; omega

/-- w's block at point t, entry (r, q): w at row 1024·(t mod 4) + r, column 1024·(t / 4 mod 4) + q. -/
theorem w_block (c : Dev nD) (t : Fin cfg0.N) (r q : Fin 1024) :
    (iblk m c 1 t (ix2 r q) : EReal) = ext2 (argW m c) (1024 * (t.val % 4) + r.val) (1024 * (t.val / 4 % 4) + q.val) := by
  unfold iblk
  rw [View.read_apply]
  show (V m c main_v1 _ : EReal) = _
  rw [staged_w]
  refine ext2_of_idx (argW m c) _ _ _ ?_ ?_
  · show win0_1.index t 0 * 1024 + 1 * r.val = _
    rw [(block_of_point t).2.1.1]; omega
  · show win0_1.index t 1 * 1024 + 1 * q.val = _
    rw [(block_of_point t).2.1.2]; omega

/-- The bias row's block at point t, entry (0, q): the bias at 1024·(t / 4 mod 4) + q. -/
theorem b_block (c : Dev nD) (t : Fin cfg0.N) (q : Fin 1024) :
    (iblk m c 2 t (ix2 (0 : Fin 1) q) : EReal) = ext1 (argB m c) (1024 * (t.val / 4 % 4) + q.val) := by
  unfold iblk
  rw [View.read_apply]
  show (V m c main_v2 _ : EReal) = _
  rw [staged_b]
  refine congrArg (ext1 (argB m c)) ?_
  show win0_2.index t 1 * 1024 + 1 * q.val = _
  rw [(block_of_point t).2.2.1.2]; omega

/-- What one step adds at (p, q): contraction block t mod 4 of entry (p, q) of tile (t / 16, t / 4 mod 4). -/
theorem step_term (c : Dev nD) (t : Fin cfg0.N) (p q : Fin 1024) (x w : Vec Ideal S1024x1024 .bf16)
    (hx : x = iblk m c 0 t) (hw : w = iblk m c 1 t) :
    ∑ r : Fin 1024, (x (ix2 p r) : EReal) * (w (ix2 r q) : EReal)
      = blockTerm (argX m c) (argW m c) (t.val / 16) (t.val / 4 % 4) (t.val % 4) p q := by
  subst hx hw
  unfold blockTerm
  exact Finset.sum_congr rfl fun r _ => by rw [x_block, w_block]

end Cert.KernelIdeal.Blocks

end
-- ==== Proof.Accum.lean ====
/-
  The accumulator along a run of four grid steps. For the output tile (i, j) the steps k = 0, 1, 2, 3 are the
  consecutive grid points 16·i + 4·j + k. Step 0 leaves in the accumulator contraction block 0 of every entry of
  the tile; each later step adds its own contraction block to what the step before left. By induction along the
  run, after step k the entry (p, q) holds the sum of contraction blocks 0 … k.
-/
import proofs.«174094_j3212635538024_1_alg».proof.Proof.Pieces
import proofs.«174094_j3212635538024_1_alg».proof.Proof.PayloadAt
import proofs.«174094_j3212635538024_1_alg».proof.Proof.Blocks

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx MatmulBias Cert.KernelIdeal.Blocks

variable (m : (ℓ : Loc nD τ sig) → Buf (Elt Ideal) ℓ)

/-- At the first step of a run the accumulator ends at that step's contraction block alone (zero plus it). -/
theorem first_step (c : Dev nD) (t : Fin cfg0.N) (h0 : t.val % 4 = 0) (p q : Fin 1024) :
    ((outsAt0 m c t.val t.isLt).2 (ix2 p q) : EReal)
      = blockTerm (argX m c) (argW m c) (t.val / 16) (t.val / 4 % 4) (t.val % 4) p q := by
  have h1 : ¬t.val % 4 = 3 := by omega
  rw [outsAt0_A m c t h0 h1]
  dsimp only
  rw [Pieces.acc_first, PayloadAt.step_at, PayloadAt.zero_at, zero_add, step_term m c t p q _ _ rfl rfl]

/-- At every later step it ends at what the step before left plus that step's contraction block. -/
theorem later_step (c : Dev nD) (t : Fin cfg0.N) (h0 : ¬t.val % 4 = 0) (p q : Fin 1024) :
    ((outsAt0 m c t.val t.isLt).2 (ix2 p q) : EReal)
      = ((outsAt0 m c (t.val - 1) (Nat.lt_of_le_of_lt (Nat.sub_le _ _) t.isLt)).2 (ix2 p q) : EReal)
        + blockTerm (argX m c) (argW m c) (t.val / 16) (t.val / 4 % 4) (t.val % 4) p q := by
  by_cases h1 : t.val % 4 = 3
  · rw [outsAt0_C m c t h0 h1]
    dsimp only
    rw [Pieces.acc_last, PayloadAt.step_at, step_term m c t p q _ _ rfl rfl]
  · rw [outsAt0_B m c t h0 h1]
    dsimp only
    rw [Pieces.acc_middle, PayloadAt.step_at, step_term m c t p q _ _ rfl rfl]

/-- So after step k of a run the accumulator's entry (p, q) is the sum of contraction blocks 0 … k of the
    tile's entry — by induction along the run, never enumerating the grid. -/
theorem acc_at (c : Dev nD) : ∀ (n : ℕ) (h : n < cfg0.N) (p q : Fin 1024),
    ((outsAt0 m c n h).2 (ix2 p q) : EReal)
      = ∑ b ∈ Finset.range (n % 4 + 1), blockTerm (argX m c) (argW m c) (n / 16) (n / 4 % 4) b p q := by
  intro n
  induction n with
  | zero =>
    intro h p q
    rw [first_step m c ⟨0, h⟩ rfl p q, Finset.sum_range_one]
    rfl
  | succ n ih =>
    intro h p q
    by_cases h0 : (n + 1) % 4 = 0
    · rw [first_step m c ⟨n + 1, h⟩ h0 p q]
      show blockTerm _ _ ((n + 1) / 16) ((n + 1) / 4 % 4) ((n + 1) % 4) p q = _
      rw [h0, Finset.sum_range_one]
    · rw [later_step m c ⟨n + 1, h⟩ h0 p q]
      show ((outsAt0 m c n _).2 (ix2 p q) : EReal) + blockTerm _ _ ((n + 1) / 16) ((n + 1) / 4 % 4) ((n + 1) % 4) p q = _
      rw [ih (Nat.lt_of_succ_lt h) p q, Finset.sum_range_succ _ ((n + 1) % 4)]
      have e1 : n / 16 = (n + 1) / 16 := by omega
      have e2 : n / 4 % 4 = (n + 1) / 4 % 4 := by omega
      have e3 : n % 4 + 1 = (n + 1) % 4 := by omega
      rw [e1, e2, e3]

end Cert.KernelIdeal.Accum

end
-- ==== Proof.Final.lean ====
/-
  The kernel's result array after the run. The output block of tile (i, j) is written back once, at the last of
  the tile's four steps, and holds there accumulator + bias: contraction blocks 0, 1, 2 from the steps before, block 3
  from this step, and the bias row's entry — the whole entry of the product plus the bias. The 8 × 4 tiles cover the
  8192 × 4096 array (entry (a, b) lies in tile (a / 1024, b / 1024)), so the array ends at that function everywhere.
-/
import proofs.«174094_j3212635538024_1_alg».proof.Proof.Accum
import proofs.«174094_j3212635538024_1_alg».proof.Proof.Gen.KernelIdeal.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx MatmulBias Cert.KernelIdeal.Blocks

variable (m : (ℓ : Loc nD τ sig) → Buf (Elt Ideal) ℓ) (ρ : Dev nD → PrngReg)

/-- What the result array ends holding: the product of the launched x and w plus the launched bias. -/
abbrev result (c : Dev nD) : Buf (Elt Ideal) ((c : Thread nD τ).loc main_v3) :=
  G (argX m c) (argW m c) (argB m c)

/-- The output is written back at the last step of each run only, and what is written there is the tile of
    `result`: the accumulator after three steps, plus the fourth step's block, plus the bias. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  rw [Value.flushed3_C m c t h0 h1, Pieces.out_last]
  funext y
  obtain ⟨p, q, rfl⟩ : ∃ (p q : Fin 1024), y = ix2 p q := ⟨y 0, y 1, eq_ix2 y⟩
  show (k0_pay3 (F := Ideal) (k0_pay2 (outsAt0 m c (t.val - 1) (Nat.lt_of_le_of_lt (Nat.sub_le _ _) t.isLt)).2 (iblk m c 0 t) (iblk m c 1 t)) (iblk m c 2 t) (ix2 p q) : EReal)
    = result m c (((cfg0.win 3).blk t).view.emb (ix2 p q))
  have e1 : (t.val - 1) / 16 = t.val / 16 := by omega
  have e2 : (t.val - 1) / 4 % 4 = t.val / 4 % 4 := by omega
  have e3 : (t.val - 1) % 4 + 1 = 3 := by omega
  rw [PayloadAt.bias_at, PayloadAt.step_at, step_term m c t p q _ _ rfl rfl, b_block,
    Accum.acc_at m c (t.val - 1) _ p q, e1, e2, e3, h1]
  have hr : ((((cfg0.win 3).blk t).view.emb (ix2 p q)) 0).val = 1024 * (t.val / 16) + p.val := by
    show win0_3.index t 0 * 1024 + 1 * p.val = _
    rw [(block_of_point t).2.2.2.1]; omega
  have hc : ((((cfg0.win 3).blk t).view.emb (ix2 p q)) 1).val = 1024 * (t.val / 4 % 4) + q.val := by
    show win0_3.index t 1 * 1024 + 1 * q.val = _
    rw [(block_of_point t).2.2.2.2]; omega
  refine ((G_blocks (argX m c) (argW m c) (argB m c) _ (t.val / 16) (t.val / 4 % 4) p q hr hc).trans ?_).symm
  rw [Finset.sum_range_succ _ 3]

/-- An index of the result array is in point t's output block iff each coordinate is in the block's range. -/
theorem mem_out_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every entry (a, b) of the result lies in the block written back at the last step of the run of tile
    (a / 1024, b / 1024): the tiles cover the array. -/
theorem cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hN : cfg0.N = 128 := N_0
  let t : Fin cfg0.N := ⟨(i 0).val / 1024 * 16 + (i 1).val / 1024 * 4 + 3, by rw [hN]; omega⟩
  have ht : t.val = (i 0).val / 1024 * 16 + (i 1).val / 1024 * 4 + 3 := rfl
  refine ⟨t, (flush0_3 t).mpr (by rw [ht]; omega), ?_⟩
  rw [mem_out_block]
  obtain ⟨-, -, -, r0, r1⟩ := block_of_point t
  intro a
  match a with
  | ⟨0, _⟩ =>
    show win0_3.index t 0 * 1024 ≤ (i 0).val ∧ (i 0).val < win0_3.index t 0 * 1024 + 1024
    rw [r0, ht]; omega
  | ⟨1, _⟩ =>
    show win0_3.index t 1 * 1024 ≤ (i 1).val ∧ (i 1).val < win0_3.index t 1 * 1024 + 1024
    rw [r1, ht]; omega

/-- So the result array ends holding the product plus the bias. -/
theorem final (c : Dev nD) : (dats m 0 c).arrAt 3 cfg0.N = result m c :=
  (dats m 0 c).arrAt_eq_of_cover 3 (result m c) (flushed_eq m c) cover

/-- The kernel's run, read: the result array at the product plus the bias, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefValue.lean ====
/-
  The reference, read entry by entry over the extended reals: its matrix product is the sum over the 4096
  contraction positions of x (i, k) · w (k, j), its two broadcasts carry the bias at j to every row, and the final
  addition adds the two — the specification's function.
-/
import proofs.«174094_j3212635538024_1_alg».proof.Proof.Gen.ReferenceIdeal.Read
import proofs.«174094_j3212635538024_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx MatmulBias

/-- The reference's result is the product plus the bias, entry by entry. -/
theorem result_eq (x0 : SX.Idx → EReal) (x1 : SW.Idx → EReal) (x2 : SB.Idx → EReal) :
    val_main_v3 (F := Ideal) x0 x1 x2 = G x0 x1 x2 := by
  funext i
  have el : ∀ k : Fin 4096, lidx_main_v0 i k = ix2 (n0 := 8192) (n1 := 4096) ⟨(i 0).val, idx2_lt0 i⟩ k := fun k =>
    funext fun a => Fin.ext (by match a with | ⟨0, _⟩ => rfl | ⟨1, _⟩ => rfl)
  have er : ∀ k : Fin 4096, ridx_main_v0 i k = ix2 (n0 := 4096) (n1 := 4096) k ⟨(i 1).val, idx2_lt1 i⟩ := fun k =>
    funext fun a => Fin.ext (by match a with | ⟨0, _⟩ => rfl | ⟨1, _⟩ => rfl)
  have eb : idx_main_v1 (idx_main_v2 i) = ix1 (n := 4096) ⟨(i 1).val, idx2_lt1 i⟩ :=
    funext fun a => Fin.ext (by match a with | ⟨0, _⟩ => rfl)
  rw [val_main_v3_apply, val_main_v0_apply, val_main_v2_apply, val_main_v1_apply, eb]
  simp only [el, er]
  rfl

end Cert.ReferenceIdeal.RefValue

end
-- ==== Proof.lean ====
/-
  A tiled matrix product with bias against the plain one, equal over the extended reals.

  The kernel computes out = x · w + bias for x : 8192 × 4096, w : 4096 × 4096, bias : 4096 on a grid of
  8 × 4 × 4 points: output tile (i, j) of side 1024 is accumulated over four steps k = 0 … 3, step k adding the
  product of x's block (i, k) and w's block (k, j) to a scratch accumulator that step 0 first sets to zero, and the
  last step writing accumulator + bias row to the output. The operands are narrowed to a shorter float format
  before the product, which over the extended reals changes nothing. The reference is one matrix product over the
  whole contraction followed by the addition of the broadcast bias.

  Entry (a, b) of the kernel's result is therefore ((((0 + T₀) + T₁) + T₂) + T₃) + bias b, with
  T_k = ∑ r < 1024, x (a, 1024 k + r) · w (1024 k + r, b), and the reference's is (∑ s < 4096, x (a, s) · w (s, b)) + bias b.
  The two agree because a sum over 4096 indices is the sum of its four consecutive block sums — commutativity and
  associativity of addition only, valid on the extended reals with the infinities included — so the finiteness of the
  inputs is never used for the value.

  Modules: Spec (the function and its block form), BlockSum (the law of sums), Pieces (what each case of the body
  stores), PayloadAt (the body's arithmetic at an entry), Blocks (operand blocks as entries of the arguments),
  Accum (the accumulator along a run), Final (the result array), RefValue (the reference at an entry).
-/
import proofs.«174094_j3212635538024_1_alg».proof.Defs
import proofs.«174094_j3212635538024_1_alg».proof.Proof.Gen.Kernel
import proofs.«174094_j3212635538024_1_alg».proof.Proof.Gen.Kernel.Skeleton
import proofs.«174094_j3212635538024_1_alg».proof.Proof.Gen.Kernel.Launch
import proofs.«174094_j3212635538024_1_alg».proof.Proof.Gen.Kernel.Points
import proofs.«174094_j3212635538024_1_alg».proof.Proof.Gen.Kernel.Frame
import proofs.«174094_j3212635538024_1_alg».proof.Proof.Gen.KernelIdeal
import proofs.«174094_j3212635538024_1_alg».proof.Proof.Gen.KernelIdeal.Skeleton
import proofs.«174094_j3212635538024_1_alg».proof.Proof.Gen.KernelIdeal.Launch
import proofs.«174094_j3212635538024_1_alg».proof.Proof.Gen.KernelIdeal.Points
import proofs.«174094_j3212635538024_1_alg».proof.Proof.Gen.KernelIdeal.Frame
import proofs.«174094_j3212635538024_1_alg».proof.Proof.Gen.ReferenceIdeal
import proofs.«174094_j3212635538024_1_alg».proof.Proof.Gen.Pre_finite_inputs
import proofs.«174094_j3212635538024_1_alg».proof.Proof.Gen.KernelIdeal.Value
import proofs.«174094_j3212635538024_1_alg».proof.Proof.Gen.ReferenceIdeal.Run
import proofs.«174094_j3212635538024_1_alg».proof.Proof.Gen.ReferenceIdeal.Read
import proofs.«174094_j3212635538024_1_alg».proof.Proof.Final
import proofs.«174094_j3212635538024_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to restate. -/
theorem preserves : Cert.preserves_Kernel_KernelIdeal := trivial

/-- From arguments that agree, the kernel's result array ends at the product plus the bias (the accumulated
    tiles, re-associated into the whole sum) and the reference's at the same function. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
